-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .f32 = 32 ∨ (Rect.block (s := S8192x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x16384.size a
  hwx0_1 : ∀ i : grid0.Coords, EltTy.bits .f32 = 32 ∨ (Rect.block (s := S8192x16384) S512x2048.size (cc0_transform_1 i) (hinb0_1 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S_, .f32⟩
  | .hbm, ⟨2, _⟩ => ⟨S8192x16384, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S_, .f32⟩
  | .hbm, ⟨8, _⟩ => ⟨S8192x16384, .f32⟩
  | .hbm, ⟨9, _⟩ => ⟨S8192x16384, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)

variable [Facts₀]

class Facts : Prop extends Facts₀ where

variable [Facts]
-- ==== Proof.AffineLaw.lean ====
/-
  The mathematics of this certificate, over the extended reals and nothing else.

  The kernel computes `x * 3 + 5` entry by entry; the reference computes `(x + 2) * 3 - 1`.  On a real `x` the two
  are the same polynomial, `3 x + 5`, because `2 * 3 - 1 = 5`.  At the two infinities every step of either side
  keeps the infinity it started from (adding or subtracting a real does not move it, and the factor `3` is
  positive), so the two sides also agree there: the identity holds on the whole extended real line and needs no
  finiteness hypothesis.

  The four float words the two programs spell are exact small integers: `2.0`, `3.0`, `1.0` and `5.0`.
-/
import Idealize.ShloMosaic.PureOps.Ideal

noncomputable section

namespace Cert.AffineLaw

open Idealize.ShloMosaic

/-! ## The four words -/

/-- The f32 word `0x40000000` (sign 0, exponent 128, fraction 0) denotes the real `2`. -/
theorem word_two : Ideal.ofBits .f32 0x40000000#32 = ((2 : ℝ) : EReal) := by
  simp [Ideal.ofBits, Ideal.ieee, -EReal.coe_mul]; norm_num

/-- The f32 word `0x40400000` (exponent 128, fraction one half) denotes the real `3`. -/
theorem word_three : Ideal.ofBits .f32 0x40400000#32 = ((3 : ℝ) : EReal) := by
  simp [Ideal.ofBits, Ideal.ieee, -EReal.coe_mul]; norm_num

/-- The f32 word `0x3F800000` (exponent 127, fraction 0) denotes the real `1`. -/
theorem word_one : Ideal.ofBits .f32 0x3F800000#32 = ((1 : ℝ) : EReal) := by
  simp [Ideal.ofBits, Ideal.ieee, -EReal.coe_mul]; norm_num

/-- The f32 word `0x40A00000` (exponent 129, fraction one quarter) denotes the real `5`. -/
theorem word_five : Ideal.ofBits .f32 0x40A00000#32 = ((5 : ℝ) : EReal) := by
  simp [Ideal.ofBits, Ideal.ieee, -EReal.coe_mul]; norm_num

/-! ## The law -/

/-- `(x + 2) * 3 - 1 = x * 3 + 5` for every extended real `x`: the same polynomial on the reals, and `⊥` (resp. `⊤`)
    on both sides at `⊥` (resp. `⊤`). -/
theorem shift_scale (x : EReal) :
    (x + ((2 : ℝ) : EReal)) * ((3 : ℝ) : EReal) - ((1 : ℝ) : EReal) = x * ((3 : ℝ) : EReal) + ((5 : ℝ) : EReal) := by
  have h3 : (0 : ℝ) < 3 := by norm_num
  induction x using EReal.rec with
  | bot =>
    rw [EReal.bot_add, EReal.bot_mul_coe_of_pos h3, EReal.bot_sub, EReal.bot_add]
  | coe r =>
    rw [← EReal.coe_add, ← EReal.coe_mul, ← EReal.coe_sub, ← EReal.coe_mul, ← EReal.coe_add]
    congr 1
    ring
  | top =>
    rw [EReal.top_add_coe, EReal.top_mul_coe_of_pos h3, EReal.top_sub_coe, EReal.top_add_coe]

end Cert.AffineLaw

end
-- ==== Proof.SameEntry.lean ====
/-
  The reference's result array is the kernel's result array, as one function of the argument array.

  After its run the kernel's output holds, at every index `i` of the 8192 × 16384 array, `x i * 3 + 5` (the
  generated value leg's closed form `G1`: each 512 × 2048 block is written once, by the grid point that owns it, and
  the 16 × 8 blocks tile the array).  The reference's run ends with the composed term of its nine host operations:
  the scalars `2`, `3` and `1` each broadcast to the whole array, then `(x + 2) * 3 - 1` entry by entry.  A broadcast
  of a scalar read at any index is that scalar, so at index `i` the reference holds `(x i + 2) * 3 - 1`, and the law
  of AffineLaw.lean, with the four words read as the integers they denote, makes that `x i * 3 + 5`.
-/
import proofs.«138781_j76166950027887_1_alg».proof.Proof.Gen.KernelIdeal.Value
import proofs.«138781_j76166950027887_1_alg».proof.Proof.Gen.ReferenceIdeal.Run
import proofs.«138781_j76166950027887_1_alg».proof.Proof.AffineLaw

noncomputable section

namespace Cert.ReferenceIdeal.SameEntry

open Cert.ReferenceIdeal Cert.ReferenceIdeal.Gen Idealize.ShloMosaic Idealize.ShloMosaic.TcCoe

/-- Entry by entry, `(x + 2) * 3 - 1` with the three scalars broadcast over the array is the kernel's `x * 3 + 5`. -/
theorem reference_is_kernel (x : FVec Ideal S8192x16384 .f32) :
    subf (mulf (addf x (broadcastInDim S8192x16384 ![] Cert.ReferenceIdeal.Gen.bcast_S_S8192x16384 (constant S_ .f32 0x40000000#32)))
        (broadcastInDim S8192x16384 ![] Cert.ReferenceIdeal.Gen.bcast_S_S8192x16384 (constant S_ .f32 0x40400000#32)))
      (broadcastInDim S8192x16384 ![] Cert.ReferenceIdeal.Gen.bcast_S_S8192x16384 (constant S_ .f32 0x3F800000#32))
    = Cert.KernelIdeal.Value.G1 (F := Ideal) x := by
  funext i
  have hs : ∀ b : BitVec FTy.f32.bits, Scalar.ofBits (F := Ideal) .f32 b = Ideal.ofBits .f32 b := fun _ => rfl
  simp only [Cert.KernelIdeal.Value.G1, subf, mulf, addf, broadcastInDim, constant, hs, Ideal.addf_def, Ideal.mulf_def,
    Ideal.subf_def, Ideal.ofBits_def, Cert.AffineLaw.word_two, Cert.AffineLaw.word_three, Cert.AffineLaw.word_one,
    Cert.AffineLaw.word_five]
  exact Cert.AffineLaw.shift_scale (x i)

end Cert.ReferenceIdeal.SameEntry

end
-- ==== Proof.lean ====
/-
  The kernel streams an 8192 × 16384 array of floats through 512 × 2048 blocks and writes `x * 3 + 5` entry by entry;
  the reference computes `(x + 2) * 3 - 1` on the whole array.  Read over the extended reals, where every float
  operation is the exact one, the two are the same function: on a real entry both are `3 x + 5` (since
  `2 * 3 - 1 = 5`), and at either infinity both sides return that infinity.  So the identity holds for every input
  and the proof never uses the finiteness of the inputs.

  Parts.  The kernel's result array as one function of its argument, `G1 x i = x i * 3 + 5`, is the generated value
  leg (each block is written by exactly one grid point and the blocks tile the array); the reference's result as
  the composed term of its host operations is the generated run.  Proof/AffineLaw.lean has the identity on the
  extended reals and the values of the four float words; Proof/SameEntry.lean reads the reference's term at an
  index and applies the identity.  The three frame claims are the generated frame of the word-level kernel and the
  two value runs with the result dropped; the idealization rewrote nothing, so `preserves` has nothing to state.
-/
import proofs.«138781_j76166950027887_1_alg».proof.Defs
import proofs.«138781_j76166950027887_1_alg».proof.Proof.Gen.Kernel.Frame
import proofs.«138781_j76166950027887_1_alg».proof.Proof.Gen.KernelIdeal.Value
import proofs.«138781_j76166950027887_1_alg».proof.Proof.Gen.Pre_finite_inputs
import proofs.«138781_j76166950027887_1_alg».proof.Proof.Gen.ReferenceIdeal.Run
import proofs.«138781_j76166950027887_1_alg».proof.Proof.SameEntry
import Idealize.ShloMosaic.Adequacy
import Idealize.ShloMosaic.Init

noncomputable section

namespace Cert.Proof

open Idealize.ShloMosaic Idealize.SL.Sem

/-- The idealized kernel terminates without a fault and leaves its argument as it found it: its value run, with the
    result array's equation dropped. -/
theorem frame_KernelIdeal : frame_KernelIdeal := fun m ρ _ =>
  (θ_run Cert.KernelIdeal.defs _ _).mono (fun _ h c => (h c).2) (Cert.KernelIdeal.Value.run (F := Ideal) m ρ)

/-- The same for the reference, from its run. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the argument, the kernel's output ends at `x * 3 + 5` and the reference's at
    `(x + 2) * 3 - 1` of that same `x`: one array, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.SameEntry.reference_is_kernel _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
